-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S2x1600000 32) (main_arg2 : FVec F S512x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S2000x64 : Shape := ⟨2, ![2000, 64]⟩
abbrev S1650000x64 : Shape := ⟨2, ![1650000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 135
  | .vmem => 16
  | .smem => 0
  | _ => 0

abbrev hbmTy0_0 (i : Nat) : BufTy := match i % 128 with
  | 0 => ⟨S50000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S50000, .i32⟩
  | 9 => ⟨S1x1600000, .i32⟩
  | 10 => ⟨S1600000, .i32⟩
  | 11 => ⟨S1650000, .i32⟩
  | 12 => ⟨S1x1600000, .i32⟩
  | 13 => ⟨S1600000, .i32⟩
  | 14 => ⟨S1650000, .i32⟩
  | 15 => ⟨S512x128, .bf16⟩
  | 16 => ⟨S50000x128, .f32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x1, .f32⟩
  | 63 => ⟨S1650000x128, .f32⟩
  | 64 => ⟨S1650000x128, .f32⟩
  | 65 => ⟨S_, .f32⟩
  | 66 => ⟨S50000x128, .f32⟩
  | 67 => ⟨S1650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S128x64, .bf16⟩
  | 76 => ⟨S50000x64, .f32⟩
  | 77 => ⟨S_, .f32⟩
  | 78 => ⟨S1650000, .f32⟩
  | 79 => ⟨S_, .f32⟩
  | 80 => ⟨S50000, .f32⟩
  | 81 => ⟨S1650000x1, .i32⟩
  | 82 => ⟨S50000, .f32⟩
  | 83 => ⟨S_, .f32⟩
  | 84 => ⟨S50000, .f32⟩
  | 85 => ⟨S50000, .i1⟩
  | 86 => ⟨S_, .f32⟩
  | 87 => ⟨S50000, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S1650000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000x64, .f32⟩
  | 122 => ⟨S1650000x1, .f32⟩
  | 123 => ⟨S1650000x64, .f32⟩
  | 124 => ⟨S1650000x64, .f32⟩
  | 125 => ⟨S_, .f32⟩
  | 126 => ⟨S50000x64, .f32⟩
  | 127 => ⟨S1650000x1, .i32⟩
  | _ => ⟨S50000x512, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S64x64, .bf16⟩
  | 5 => ⟨S1x64, .f32⟩
  | 6 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .bf16⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .bf16⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x128_S2000x128_1_0_0_1_n_n_wf : DotDims.WF S2000x512 S512x128 S2000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 149
  | .vmem => 0
  | .smem => 0
  | _ => 0

abbrev hbmTy0_0 (i : Nat) : BufTy := match i % 128 with
  | 0 => ⟨S50000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S50000, .i32⟩
  | 9 => ⟨S1x1600000, .i32⟩
  | 10 => ⟨S1600000, .i32⟩
  | 11 => ⟨S1650000, .i32⟩
  | 12 => ⟨S1x1600000, .i32⟩
  | 13 => ⟨S1600000, .i32⟩
  | 14 => ⟨S1650000, .i32⟩
  | 15 => ⟨S50000x128, .f32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S_, .f32⟩
  | 76 => ⟨S1650000, .f32⟩
  | 77 => ⟨S_, .f32⟩
  | 78 => ⟨S50000, .f32⟩
  | 79 => ⟨S1650000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S1650000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x64, .f32⟩
  | 120 => ⟨S1650000x1, .f32⟩
  | 121 => ⟨S1650000x64, .f32⟩
  | 122 => ⟨S1650000x64, .f32⟩
  | 123 => ⟨S_, .f32⟩
  | 124 => ⟨S50000x64, .f32⟩
  | 125 => ⟨S1650000x1, .i32⟩
  | 126 => ⟨S50000x64, .f32⟩
  | 127 => ⟨S1x64, .f32⟩
  | _ => ⟨S50000x512, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x64, .f32⟩
  | 13 => ⟨S50000x64, .f32⟩
  | 14 => ⟨S50000x64, .f32⟩
  | 15 => ⟨S_, .f32⟩
  | 16 => ⟨S50000, .f32⟩
  | 17 => ⟨S50000x1, .f32⟩
  | 18 => ⟨S50000x1, .f32⟩
  | 19 => ⟨S50000x64, .f32⟩
  | 20 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_c_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_19 : Ref sig .tc := ⟨.hbm, 111, rfl⟩
abbrev main_v76 : Ref sig .tc := ⟨.hbm, 112, rfl⟩
abbrev main_v77 : Ref sig .tc := ⟨.hbm, 113, rfl⟩
abbrev main_c_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v96 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x128_S50000x128_1_0_0_1_n_n_wf : DotDims.WF S50000x512 S512x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibTypedMoves.lean ====
/-
  Reading a line of host operations back to a pure term: two facts about outlined functions' operations, and two
  rewriting loops.

  An operation of a module-local function (jnp.where, relu, log_softmax, …) is spelt over typed references: its
  function is stated at the value's type T and moved to the buffer's own type along the reference's proof that the
  two agree (`toBuf`), an operand's contents the other way (`ofBuf`).  For a buffer of the printed signature the
  value's type IS the buffer's type, so both moves are the identity:

  * `ofBuf_self`, `toBuf_self`: the identity, stated at T := the buffer's own type so that rewriting with them
    unifies T with the buffer's type by unfolding the signature once per buffer.  A goal that still carries the
    moves around a `Host.reduce` or a `select` over large operands is expensive to close by unfolding; after
    `strip_moves` it is an equation between pure terms.
  * `read_back`: the result lemmas of Lib/StableHlo/Run.lean as a rewriting loop.  After the one-pass form
    (`after_results_simp`) a buffer read that sits inside a concatenate's operand list — a dependent pair of a
    shape and an array — is left as an unrewritten chain of `.result`; this loop clears those.
-/
import Idealize.ShloMosaic.Lib.StableHlo.Run

noncomputable section

namespace Idealize.ShloMosaic.TypedMoves

open Idealize.ShloMosaic Idealize.ShloMosaic.StableHlo

/-- An operand of an outlined function's operation, read at the value's type when that is the buffer's own type:
    the move is the identity. -/
theorem ofBuf_self {sig : RefSig} {Val : EltTy → Type} (r : Ref sig .tc) (p1 : r.ty = r.ty) (p2 : r.space ≠ .host)
    (p3 : r.isScoped = false) (a : r.ty.Contents Val) : (TRef.of (T := r.ty) r p1 p2 p3).ofBuf a = a := rfl

/-- The result of an outlined function's operation, written at the buffer's own type: the same identity. -/
theorem toBuf_self {sig : RefSig} {Val : EltTy → Type} (r : Ref sig .tc) (p1 : r.ty = r.ty) (p2 : r.space ≠ .host)
    (p3 : r.isScoped = false) (v : r.ty.Contents Val) : (TRef.of (T := r.ty) r p1 p2 p3).toBuf v = v := rfl

/-- Removes the moves between a value's type and its buffer's type, one buffer at a time. -/
macro "strip_moves" : tactic => `(tactic| (repeat (first | rw [ofBuf_self] | rw [toBuf_self])))

/-- Reads a buffer back through the operations left in the goal, one rewriting step per operation and reference. -/
macro "read_back" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Idealize.ShloMosaic.TypedMoves

end
-- ==== Proof.FoldedRun.lean ====
/-
  The idealized kernel's run with its result named. The program is three pallas_calls among stretches of host
  operations; the buffer contents at the boundary after the last call are the fold `W12` of the launch memory through
  the stretches and the calls' write-backs. Every weakly fair execution terminates, nothing faulting, with every
  unscoped buffer at that fold: in particular the result buffer, and the eight argument arrays, which the fold leaves
  as launched.
-/
import proofs.«163264_j20469814133394_1_alg».proof.Proof.Gen.KernelIdeal.Frame

set_option maxRecDepth 16384

noncomputable section

namespace Cert.KernelIdeal.Folded

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run : θ_run defs (onTc (τ := τ) (main (F := F))) ⟨m, fun _ => 0, ρ⟩ (fun r => ∀ c : Dev nD,
      r.2.mem ((c.tc : Thread nD τ).loc main_v96) = W12 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v96 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Folded

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.FirstProduct.lean ====
/-
  The first projection. The first pallas_call walks the node features in 25 blocks of 2000 rows; at each block it
  multiplies the block [2000, 512] by the whole weight matrix [512, 128] into a zero accumulator and writes the product
  back as rows 2000·t … 2000·t + 1999 of the result. The result array [50000, 128] therefore ends, at entry (r, c), with
  the sum over k of feature (r, k) times weight (k, c) of the arrays the call found on entry: the plain matrix product.
  (The narrowing of the two operands to bf16 is the identity on the extended reals.)
-/
import proofs.«163264_j20469814133394_1_alg».proof.Proof.Gen.KernelIdeal.Frame
import proofs.«163264_j20469814133394_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The plain product of a feature array and a weight matrix. -/
def product (x : S50000x512.Idx → EReal) (w : S512x128.Idx → EReal) : S50000x128.Idx → EReal := fun i =>
  ∑ k : Fin 512, x (ix2 (i 0) k) * w (ix2 k (i 1))

/-- One grid point's stored block, entry by entry: the block of features times the weights. -/
theorem stored_apply (x0 : Vec Ideal S2000x512 .f32) (x1 : Vec Ideal S512x128 .bf16) (j : S2000x128.Idx) :
    k0_pay1 x0 x1 j = ∑ k : Fin 512, x0 (ix2 (j 0) k) * x1 (ix2 k (j 1)) := by
  unfold k0_pay1
  refine (PlainDot.matmul_zero_apply dot_S2000x512_S512x128_S2000x128_1_0_0_1_n_n rfl none _ _ j).trans ?_
  simp only [shapeCast_self]
  rfl

/-- Where the three windows sit at grid point t: features and result on row block t, the weights whole. -/
theorem placement : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two arrays the call reads, as it finds them on entry. -/
theorem flushed_eq (c : Dev nD) (t : Fin cfg0.N) :
    (dat0 V c).flushed 2 t = ((cfg0.win 2).blk t).view.read (Elt Ideal) (product (V c main_arg0) (V c main_v7)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x128) origin]
  obtain ⟨e0, e1, e2, e3, e4, e5⟩ := placement t
  funext j
  show k0_pay1 (iblk0 V c 0 t) (iblk0 V c 1 t) j = product (V c main_arg0) (V c main_v7) (((cfg0.win 2).blk t).view.emb j)
  refine (stored_apply _ _ j).trans ?_
  unfold product
  refine Finset.sum_congr rfl fun k _ => ?_
  have hl : (iblk0 V c 0 t : S2000x512.Idx → EReal) (ix2 (j 0) k)
      = (V c main_arg0 : S50000x512.Idx → EReal) (ix2 ((((cfg0.win 2).blk t).view.emb j) 0) k) := by
    unfold iblk0
    rw [View.read_apply]
    show V c main_arg0 _ = V c main_arg0 _
    congr 1
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hr : (iblk0 V c 1 t : S512x128.Idx → EReal) (ix2 k (j 1))
      = (V c main_v7 : S512x128.Idx → EReal) (ix2 k ((((cfg0.win 2).blk t).view.emb j) 1)) := by
    unfold iblk0
    rw [View.read_apply]
    show V c main_v7 _ = V c main_v7 _
    congr 1
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [hl, hr]

/-- An index lies in grid point t's block exactly when each coordinate lies in the block's range. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v8).slice (win0_2.rect t)).set ↔ _
  rw [View.set_slice_whole, Rect.mem_set_unit]
  exact Iff.rfl

/-- Row r belongs to block r / 2000: the 25 blocks fill the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := placement t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the call is the product. -/
theorem final (c : Dev nD) : (dat0 V c).arrAt 2 cfg0.N = product (V c main_arg0) (V c main_v7) :=
  (dat0 V c).arrAt_eq_of_cover 2 (product (V c main_arg0) (V c main_v7)) (fun t _ => flushed_eq V c t) covered

end Cert.KernelIdeal.FirstProduct

end
-- ==== Proof.SecondProduct.lean ====
/-
  The second projection. The second pallas_call walks the hidden features in 25 blocks of 2000 rows; at each block it
  multiplies the block [2000, 128] by the whole weight matrix [128, 64] into a zero accumulator and writes the product
  back as rows 2000·t … 2000·t + 1999 of the result. The result array [50000, 64] therefore ends, at entry (r, c), with
  the sum over k of hidden (r, k) times weight (k, c) of the arrays the call found on entry: the plain matrix product.
  (The narrowing of the two operands to bf16 is the identity on the extended reals.)
-/
import proofs.«163264_j20469814133394_1_alg».proof.Proof.Gen.KernelIdeal.Frame
import proofs.«163264_j20469814133394_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The plain product of a feature array and a weight matrix. -/
def product (x : S50000x128.Idx → EReal) (w : S128x64.Idx → EReal) : S50000x64.Idx → EReal := fun i =>
  ∑ k : Fin 128, x (ix2 (i 0) k) * w (ix2 k (i 1))

/-- One grid point's stored block, entry by entry: the block of hidden features times the weights. -/
theorem stored_apply (x0 : Vec Ideal S2000x128 .f32) (x1 : Vec Ideal S128x64 .bf16) (j : S2000x64.Idx) :
    k1_pay1 x0 x1 j = ∑ k : Fin 128, x0 (ix2 (j 0) k) * x1 (ix2 k (j 1)) := by
  unfold k1_pay1
  refine (PlainDot.matmul_zero_apply dot_S2000x128_S128x64_S2000x64_1_0_0_1_n_n rfl none _ _ j).trans ?_
  simp only [shapeCast_self]
  rfl

/-- Where the three windows sit at grid point t: features and result on row block t, the weights whole. -/
theorem placement : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the product of the two arrays the call reads, as it finds them on entry. -/
theorem flushed_eq (c : Dev nD) (t : Fin cfg1.N) :
    (dat1 V c).flushed 2 t = ((cfg1.win 2).blk t).view.read (Elt Ideal) (product (V c main_v50) (V c main_v51)) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x64) origin]
  obtain ⟨e0, e1, e2, e3, e4, e5⟩ := placement t
  funext j
  show k1_pay1 (iblk1 V c 0 t) (iblk1 V c 1 t) j = product (V c main_v50) (V c main_v51) (((cfg1.win 2).blk t).view.emb j)
  refine (stored_apply _ _ j).trans ?_
  unfold product
  refine Finset.sum_congr rfl fun k _ => ?_
  have hl : (iblk1 V c 0 t : S2000x128.Idx → EReal) (ix2 (j 0) k)
      = (V c main_v50 : S50000x128.Idx → EReal) (ix2 ((((cfg1.win 2).blk t).view.emb j) 0) k) := by
    unfold iblk1
    rw [View.read_apply]
    show V c main_v50 _ = V c main_v50 _
    congr 1
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have hr : (iblk1 V c 1 t : S128x64.Idx → EReal) (ix2 k (j 1))
      = (V c main_v51 : S128x64.Idx → EReal) (ix2 k ((((cfg1.win 2).blk t).view.emb j) 1)) := by
    unfold iblk1
    rw [View.read_apply]
    show V c main_v51 _ = V c main_v51 _
    congr 1
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hl, hr]

/-- An index lies in grid point t's block exactly when each coordinate lies in the block's range. -/
theorem mem_block (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v52).slice (win1_2.rect t)).set ↔ _
  rw [View.set_slice_whole, Rect.mem_set_unit]
  exact Iff.rfl

/-- Row r belongs to block r / 2000: the 25 blocks fill the array. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨e0, e1, e2, e3, e4, e5⟩ := placement t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The result array after the call is the product. -/
theorem final (c : Dev nD) : (dat1 V c).arrAt 2 cfg1.N = product (V c main_v50) (V c main_v51) :=
  (dat1 V c).arrAt_eq_of_cover 2 (product (V c main_v50) (V c main_v51)) (fun t _ => flushed_eq V c t) covered

end Cert.KernelIdeal.SecondProduct

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibHostRowMax.lean ====
/-
  GENERAL LEMMA: the host's reduce with a maximum body along the second axis of a rank-2 array — what
  `max(x, axis=1)` is in a host program — read at an index given by coordinates.
  • `hostReduce_maximumf_axis1_apply`: on the extended reals, the reduce of an `[a, b]` array along axis 1, at `i`, is the
    fold of `max` over the entries `(i, k)` of row `i`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 1 of an `[a, b]` array of extended reals: at `i` it is the fold of `max`, from the
    initial value, over the entries of row `i`. -/
theorem hostReduce_maximumf_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x _ h' h hu]
  refine congrArg (fun f => Finset.fold max (init (Shape.Idx.first hu)) f (Finset.univ : Finset (Fin b))) (funext fun k => congrArg x ?_)
  funext c
  match c with
  | ⟨0, _⟩ => exact Fin.ext rfl
  | ⟨1, _⟩ => exact Fin.ext rfl

end Idealize.ShloMosaic.ValueIdx

end
-- ==== Proof.LibHostRowSum.lean ====
/-
  GENERAL LEMMA: the host's sum along the second axis of a rank-2 array — what `sum(x, axis=1)` is in a host program —
  read at an index given by coordinates.
  • `hostReduceAdd_axis1_apply`: on the extended reals, the sum-reduce of an `[a, b]` array along axis 1, at `i`, is the
    initial value's one element plus the sum over `k` of the entries `(i, k)` of row `i`.
-/
import Idealize.ShloMosaic.Lib.ValueIdx
import Idealize.ShloMosaic.PureOps.Ideal.Laws
import Idealize.ShloMosaic.PureOps.Reduce

noncomputable section

open scoped BigOperators

namespace Idealize.ShloMosaic.ValueIdx

open Idealize.ShloMosaic

/-- The host's sum along axis 1 of an `[a, b]` array of extended reals: at `i` it is the initial value plus the sum of
    row `i`. -/
theorem hostReduceAdd_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd x init h' hu (ix1 i) = init (Shape.Idx.first hu) + ∑ k : Fin b, x (ix2 i k) := by
  unfold Host.reduceAdd
  rw [Ideal.hostReduceAdd_def]
  refine (Ideal.hostReduceAdd_single h' h x _ (ix1 i)).trans ?_
  refine congrArg (fun s => init (Shape.Idx.first hu) + s) (Finset.sum_congr rfl fun k _ => congrArg x ?_)
  funext c
  match c with
  | ⟨0, _⟩ => exact Fin.ext rfl
  | ⟨1, _⟩ => exact Fin.ext rfl

end Idealize.ShloMosaic.ValueIdx

end
-- ==== Proof.LibLogSoftmax.lean ====
/-
  GENERAL LEMMAS: the log-softmax of each row of a rank-2 array, in its shifted form, read one entry at a time on the
  extended reals.

  For a row z the shifted form is (z c − M) − log Σₖ exp (z k − M) with M the largest entry of the row. Both a vector
  program and a host program spell it with keep-dimension columns: the row maxima as a column [a,1] broadcast back over
  the columns, the row sums of the exponentials likewise. The vector program folds the maximum from minus infinity's float
  pattern by a lane reduction and recasts [a] as [a,1]; the host program reduces from a scalar minus infinity, takes the
  maximum with a broadcast minus infinity once more (which changes nothing: the fold already starts there), and adds
  the exponentials from a scalar zero (which adds nothing). Both are `row` of the array's row.
-/
import Idealize.ShloMosaic.PureOps.Ideal.Laws
import Idealize.ShloMosaic.Lib.ValueIdx
import Idealize.ShloMosaic.Lib.Pipeline.Value
import proofs.«163264_j20469814133394_1_alg».proof.Proof.LibRowMax
import proofs.«163264_j20469814133394_1_alg».proof.Proof.LibKeepdims
import proofs.«163264_j20469814133394_1_alg».proof.Proof.LibHostRowMax
import proofs.«163264_j20469814133394_1_alg».proof.Proof.LibHostRowSum

noncomputable section

open scoped BigOperators

namespace Idealize.ShloMosaic.LogSoftmax

open Idealize.ShloMosaic Idealize.ShloMosaic.ValueIdx

/-- The largest entry of a row, folded from minus infinity's float pattern. -/
def rowMax {N : Nat} (z : Fin N → EReal) : EReal :=
  (Finset.univ : Finset (Fin N)).fold max (Ideal.ofBits .f32 0xFF800000#32) z

/-- The log-softmax of a row in its shifted form. -/
def row {N : Nat} (z : Fin N → EReal) (c : Fin N) : EReal :=
  (z c - rowMax z) - Ideal.log (∑ k : Fin N, Ideal.exp (z k - rowMax z))

/-- A column `[a, 1]` laid over `b` columns by a host broadcast reads, at `(p, c)`, the column's entry `p`. -/
theorem broadcastInDim_col_apply {α : Type} {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) := by
  refine broadcastInDim_apply _ h w (ix2 p c) (ix2 p (0 : Fin 1)) fun d => ?_
  match d with
  | ⟨0, _⟩ =>
    show p.val = if a = 1 then 0 else p.val
    split
    · have := p.isLt; omega
    · rfl
  | ⟨1, _⟩ => show 0 = if (1 : Nat) = 1 then 0 else c.val; rw [if_pos rfl]

/-- A vector `[a]` laid out as a column `[a, 1]` by a host broadcast reads, at `(p, u)`, the vector's entry `p`. -/
theorem broadcastInDim_toCol_apply {α : Type} {a : ℕ} (w : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h w (ix2 p u) = w (ix1 p) := by
  refine broadcastInDim_apply _ h w (ix2 p u) (ix1 p) fun d => ?_
  match d with
  | ⟨0, _⟩ =>
    show p.val = if a = 1 then 0 else p.val
    split
    · have := p.isLt; omega
    · rfl

/-- The vector program's spelling: lane reductions from the patterns of minus infinity and zero, recast as columns and
    broadcast back. -/
theorem vector_apply {a b : ℕ} (v : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    subf (subf v (broadcastTo ⟨2, ![a, b]⟩ (shapeCast ⟨2, ![a, 1]⟩ (multiReduction .maximumf [1] ⟨1, ![a]⟩ v 0xFF800000#32 hr hφ hmax) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hmax) hc) hb)))
          0x00000000#32 hr hφ hadd) hc)) hb) (ix2 p c)
      = row (fun k => v (ix2 p k)) c := by
  have hm : ∀ q : Fin b, broadcastTo ⟨2, ![a, b]⟩ (shapeCast ⟨2, ![a, 1]⟩ (multiReduction .maximumf [1] ⟨1, ![a]⟩ v 0xFF800000#32 hr hφ hmax) hc) hb (ix2 p q)
      = rowMax (fun k => v (ix2 p k)) := fun q => by
    rw [broadcastTo_a1_ab_apply, shapeCast_a_a1_apply, multiReduction_maximumf_axis1_apply]
    rfl
  rw [subf_apply, subf_apply, hm c, broadcastTo_a1_ab_apply]
  show (v (ix2 p c) - rowMax (fun k => v (ix2 p k)))
      - Ideal.log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hmax) hc) hb)))
          0x00000000#32 hr hφ hadd) hc (ix2 p (0 : Fin 1))) = _
  rw [shapeCast_a_a1_apply, multiReduction_add_axis1_apply]
  unfold row
  refine congrArg (fun s => (v (ix2 p c) - rowMax (fun k => v (ix2 p k))) - Ideal.log s) (Finset.sum_congr rfl fun k _ => ?_)
  show Ideal.exp (v (ix2 p k) - broadcastTo ⟨2, ![a, b]⟩ (shapeCast ⟨2, ![a, 1]⟩ (multiReduction .maximumf [1] ⟨1, ![a]⟩ v 0xFF800000#32 hr hφ hmax) hc) hb (ix2 p k)) = _
  rw [hm k]

/-- The host program's spelling: reduces from scalar constants, a second maximum with a broadcast minus infinity, host
    broadcasts of the columns. -/
theorem host_apply {a b : ℕ} (z : FVec Ideal ⟨2, ![a, b]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) (c : Fin b) :
    subf (subf z (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu)))))
        (broadcastInDim ⟨2, ![a, b]⟩ ![0, 1] h2 (Host.log (broadcastInDim ⟨2, ![a, 1]⟩ ![0] h1
          (Host.reduceAdd (Host.exp (subf z (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf z (constant (F := Ideal) ⟨0, ![]⟩ .f32 0xFF800000#32) hr' hu))))))
            (constant (F := Ideal) ⟨0, ![]⟩ .f32 0x00000000#32) hr' hu)))) (ix2 p c)
      = row (fun k => z (ix2 p k)) c := by
  have hm : ∀ q : Fin b, broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))) (ix2 p q)
      = rowMax (fun k => z (ix2 p k)) := fun q => by
    rw [broadcastInDim_col_apply, broadcastInDim_toCol_apply, maximumf_apply,
      broadcastInDim_apply _ h0 _ (ix1 p) ix0 (fun d => d.elim0), hostReduce_maximumf_axis1_apply z _ hr' hr hu p]
    exact max_eq_right ((Finset.le_fold_max _).mpr (Or.inl le_rfl))
  rw [subf_apply, subf_apply, hm c, broadcastInDim_col_apply]
  show (z (ix2 p c) - rowMax (fun k => z (ix2 p k)))
      - Ideal.log (broadcastInDim ⟨2, ![a, 1]⟩ ![0] h1
          (Host.reduceAdd (Host.exp (subf z (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf z (constant (F := Ideal) ⟨0, ![]⟩ .f32 0xFF800000#32) hr' hu))))))
            (constant (F := Ideal) ⟨0, ![]⟩ .f32 0x00000000#32) hr' hu) (ix2 p (0 : Fin 1))) = _
  rw [broadcastInDim_toCol_apply, hostReduceAdd_axis1_apply _ _ hr' hr hu p]
  unfold row
  refine congrArg (fun s => (z (ix2 p c) - rowMax (fun k => z (ix2 p k))) - Ideal.log s) ?_
  show Ideal.ofBits .f32 0x00000000#32 + _ = _
  rw [Ideal.ofBits_zero_f32, zero_add]
  refine Finset.sum_congr rfl fun k _ => ?_
  show Ideal.exp (z (ix2 p k) - broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))) (ix2 p k)) = _
  rw [hm k]

end Idealize.ShloMosaic.LogSoftmax

end
-- ==== Proof.Readout.lean ====
/-
  The readout. The third pallas_call walks the second layer's output in 25 blocks of 2000 rows. At each block it forms
  the logits — the block [2000, 64] times the whole weight matrix [64, 64] into a zero accumulator, plus the bias row
  [1, 64] repeated down the rows — and stores each row's log-softmax in the shifted form: (z c − M) − log Σₖ exp (z k − M)
  with M the row's largest logit. The product, the bias and the softmax all act inside one row, so the result array
  [50000, 64] ends, at entry (r, c), with the shifted log-softmax of row r of the logits of the arrays the call found
  on entry. (The narrowing of the two product operands to bf16 is the identity on the extended reals.)
-/
import proofs.«163264_j20469814133394_1_alg».proof.Proof.Gen.KernelIdeal.Frame
import proofs.«163264_j20469814133394_1_alg».proof.Proof.LibPlainDot
import proofs.«163264_j20469814133394_1_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Readout

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- A logit: the row of features against a column of weights, plus the bias of that column. -/
def logit (h : S50000x64.Idx → EReal) (w : S64x64.Idx → EReal) (b : S1x64.Idx → EReal) (r : Fin 50000) (k : Fin 64) : EReal :=
  (∑ j : Fin 64, h (ix2 r j) * w (ix2 j k)) + b (ix2 (0 : Fin 1) k)

/-- The shifted log-softmax of each row of the logits of the three arrays the call reads, as it finds them on entry. -/
def result (c : Dev nD) : S50000x64.Idx → EReal := fun i =>
  LogSoftmax.row (fun k => logit (V c main_v93) (V c main_v94) (V c main_v95) (i 0) k) (i 1)

/-- One grid point's logits, entry by entry. -/
theorem logits_apply (x0 : FVec Ideal S2000x64 .f32) (x1 : FVec Ideal S64x64 .bf16) (x2 : FVec Ideal S1x64 .f32) (p : Fin 2000) (k : Fin 64) :
    addf (F := Ideal) (matmul (F := Ideal) dot_S2000x64_S64x64_S2000x64_1_0_0_1_n_n none (truncf .bf16 (shapeCast S2000x64 x0 shapeCasts_S2000x64_S2000x64) bitsLt_bf16_f32)
        (shapeCast S64x64 x1 shapeCasts_S64x64_S64x64) (constant S2000x64 .f32 0x00000000#32))
      (broadcastTo S2000x64 (shapeCast S1x64 x2 shapeCasts_S1x64_S1x64) broadcasts_S1x64_S2000x64) (ix2 p k)
    = (∑ j : Fin 64, x0 (ix2 p j) * x1 (ix2 j k)) + x2 (ix2 (0 : Fin 1) k) := by
  rw [addf_apply, PlainDot.matmul_zero_apply dot_S2000x64_S64x64_S2000x64_1_0_0_1_n_n rfl none _ _ (ix2 p k), broadcastTo_1b_ab_apply]
  simp only [shapeCast_self]
  rfl

/-- One grid point's stored block, entry by entry: the shifted log-softmax of the block's row of logits. -/
theorem stored_apply (x0 : Vec Ideal S2000x64 .f32) (x1 : Vec Ideal S64x64 .bf16) (x2 : Vec Ideal S1x64 .f32) (j : S2000x64.Idx) :
    k2_pay1 x0 x1 x2 j = LogSoftmax.row (fun k => (∑ i : Fin 64, x0 (ix2 (j 0) i) * x1 (ix2 i k)) + x2 (ix2 (0 : Fin 1) k)) (j 1) := by
  obtain ⟨p, q, rfl⟩ : ∃ (p : Fin 2000) (q : Fin 64), j = ix2 p q := ⟨j 0, j 1, eq_ix2 j⟩
  unfold k2_pay1
  refine (LogSoftmax.vector_apply _ reduces_S2000x64_S2000 (.inl rfl) rfl rfl shapeCasts_S2000_S2000x1 broadcasts_S2000x1_S2000x64 p q).trans ?_
  refine congrArg (fun f => LogSoftmax.row f q) (funext fun k => ?_)
  exact logits_apply x0 x1 x2 p k

/-- Where the four windows sit at grid point t: features and result on row block t, weights and bias whole. -/
theorem placement : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t of the result. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero origin]
  simp only [View.ld_unit_zero (S := S2000x64) origin, View.ld_unit_zero (S := S64x64) origin, View.ld_unit_zero (S := S1x64) origin]
  obtain ⟨e0, e1, e2, e3, e4, e5, e6, e7⟩ := placement t
  funext j
  show k2_pay1 (iblk2 V c 0 t) (iblk2 V c 1 t) (iblk2 V c 2 t) j = result V c (((cfg2.win 3).blk t).view.emb j)
  refine (stored_apply _ _ _ j).trans ?_
  unfold result
  have hcol : (j 1 : Fin 64) = (((cfg2.win 3).blk t).view.emb j) 1 := by
    apply Fin.ext
    show (j 1).val = win2_3.index t (1 : Fin 2) * 64 + 1 * (j 1).val
    omega
  refine congrArg₂ LogSoftmax.row (funext fun k => ?_) hcol
  unfold logit
  have hb : (iblk2 V c 2 t : S1x64.Idx → EReal) (ix2 (0 : Fin 1) k) = (V c main_v95 : S1x64.Idx → EReal) (ix2 (0 : Fin 1) k) := by
    unfold iblk2
    rw [View.read_apply]
    show V c main_v95 _ = V c main_v95 _
    congr 1
    funext a; apply Fin.ext
    match a with
    | ⟨0, _⟩ => show win2_2.index t (0 : Fin 2) * 1 + 1 * 0 = 0; omega
    | ⟨1, _⟩ => show win2_2.index t (1 : Fin 2) * 64 + 1 * k.val = k.val; omega
  rw [hb]
  refine congrArg (fun s => s + (V c main_v95 : S1x64.Idx → EReal) (ix2 (0 : Fin 1) k)) (Finset.sum_congr rfl fun i _ => ?_)
  have hl : (iblk2 V c 0 t : S2000x64.Idx → EReal) (ix2 (j 0) i)
      = (V c main_v93 : S50000x64.Idx → EReal) (ix2 ((((cfg2.win 3).blk t).view.emb j) 0) i) := by
    unfold iblk2
    rw [View.read_apply]
    show V c main_v93 _ = V c main_v93 _
    congr 1
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * i.val = i.val; omega
  have hr : (iblk2 V c 1 t : S64x64.Idx → EReal) (ix2 i k) = (V c main_v94 : S64x64.Idx → EReal) (ix2 i k) := by
    unfold iblk2
    rw [View.read_apply]
    show V c main_v94 _ = V c main_v94 _
    congr 1
    funext a; apply Fin.ext
    match a with
    | ⟨0, _⟩ => show win2_1.index t (0 : Fin 2) * 64 + 1 * i.val = i.val; omega
    | ⟨1, _⟩ => show win2_1.index t (1 : Fin 2) * 64 + 1 * k.val = k.val; omega
  rw [hl, hr]

/-- An index lies in grid point t's block exactly when each coordinate lies in the block's range. -/
theorem mem_block (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v96).slice (win2_3.rect t)).set ↔ _
  rw [View.set_slice_whole, Rect.mem_set_unit]
  exact Iff.rfl

/-- Row r belongs to block r / 2000: the 25 blocks fill the array. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨e0, e1, e2, e3, e4, e5, e6, e7⟩ := placement t
  have ht : t.val = (i 0).val / 2000 := rfl
  refine ⟨t, flush2_3 t, ?_⟩
  rw [mem_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The result array after the call is the row-wise log-softmax of the logits. -/
theorem final (c : Dev nD) : (dat2 V c).arrAt 3 cfg2.N = result V c :=
  (dat2 V c).arrAt_eq_of_cover 3 (result V c) (fun t _ => flushed_eq V c t) covered

end Cert.KernelIdeal.Readout

end
-- ==== Proof.Layers.lean ====
/-
  The idealized kernel, layer by layer, against the reference's stages.

  Both programs are a two-layer graph convolution followed by a linear readout and a row-wise log-softmax. A layer is:
  a dense projection of the node features; the symmetric normalisation 1/sqrt(deg) of each node's in-degree (self loops
  added), gathered at both ends of every edge; the projected features gathered at each edge's source, scaled by the
  edge's normalisation and scatter-added at the edge's target; plus the bias. The kernel computes the three dense
  products inside pallas_calls and everything else by the same host operations, in the same order, as the reference;
  the reference computes the products by `dot_general`. So the contents of each buffer the kernel's calls read on entry
  are the reference's stage at the same place of the computation, once each call's result is known to be the plain
  product (FirstProduct, SecondProduct) or the log-softmax of the logits (Readout); the stretches of host operations
  between the calls are read back one operation at a time and agree with the reference's stages term for term.
-/
import proofs.«163264_j20469814133394_1_alg».proof.Proof.Gen.KernelIdeal.Frame
import proofs.«163264_j20469814133394_1_alg».proof.Proof.RefReadP
import proofs.«163264_j20469814133394_1_alg».proof.Proof.FirstProduct
import proofs.«163264_j20469814133394_1_alg».proof.Proof.SecondProduct
import proofs.«163264_j20469814133394_1_alg».proof.Proof.Readout
import proofs.«163264_j20469814133394_1_alg».proof.Proof.LibPlainDot
import proofs.«163264_j20469814133394_1_alg».proof.Proof.LibLogSoftmax
import proofs.«163264_j20469814133394_1_alg».proof.Proof.LibTypedMoves
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.StableHlo Idealize.ShloMosaic.TypedMoves

namespace Cert.KernelIdeal.Layers

open Cert.KernelIdeal Cert.KernelIdeal.Gen

variable (m : (ℓ : Loc nD τ sig) → Buf (Elt Ideal) ℓ) (ρ : Dev nD → PrngReg) (c : Dev nD)

set_option quotPrecheck false

local notation "𝐱" => (m ((c : Thread nD τ).loc main_arg0))
local notation "𝐞" => (m ((c : Thread nD τ).loc main_arg1))
local notation "𝐰₁" => (m ((c : Thread nD τ).loc main_arg2))
local notation "𝐛₁" => (m ((c : Thread nD τ).loc main_arg3))
local notation "𝐰₂" => (m ((c : Thread nD τ).loc main_arg4))
local notation "𝐛₂" => (m ((c : Thread nD τ).loc main_arg5))
local notation "𝐰₃" => (m ((c : Thread nD τ).loc main_arg6))
local notation "𝐛₃" => (m ((c : Thread nD τ).loc main_arg7))

/-! ## Before the first call -/

theorem first_features : V1 m ρ c main_arg0 = 𝐱 := by
  show W1 m ρ c (Proc.devRef .tc main_arg0) = _
  dsimp only [W1, hostOps0]
  after_results_simp

theorem first_weights : (V1 m ρ c main_v7 : S512x128.Idx → EReal) = 𝐰₁ := by
  show W1 m ρ c (Proc.devRef .tc main_v7) = _
  dsimp only [W1, hostOps0]
  after_results_simp
  rfl

/-- The edge sources with the self loops appended, as the reference's stage. -/
theorem sources_at_first : W1 m ρ c (Proc.devRef .tc main_v3) = Cert.ReferenceIdeal.ReadP.val_main_v3 (F := Ideal) 𝐞 := by
  dsimp only [W1, hostOps0]
  after_results_simp
  read_back
  rfl

/-- The edge targets with the self loops appended, as the reference's stage. -/
theorem targets_at_first : W1 m ρ c (Proc.devRef .tc main_v6) = Cert.ReferenceIdeal.ReadP.val_main_v6 (F := Ideal) 𝐞 := by
  dsimp only [W1, hostOps0]
  after_results_simp
  read_back
  rfl

/-! ## The first call -/

/-- The first call's result is the reference's first `dot_general`. -/
theorem first_product : W2 m ρ c (Proc.devRef .tc main_v8) = Cert.ReferenceIdeal.ReadP.val_main_v7 (F := Ideal) 𝐱 𝐰₁ := by
  refine (W2_arr m ρ c 2).trans ?_
  rw [FirstProduct.final]
  funext i
  unfold FirstProduct.product Cert.ReferenceIdeal.ReadP.val_main_v7
  rw [first_features, first_weights]
  exact (PlainDot.hostDot_apply (φ₁ := .f32) (φ₂ := .f32) Cert.ReferenceIdeal.dot_S50000x512_S512x128_S50000x128_1_0_0_1_n_n rfl none _ _ i).symm

/-! ## Between the first and the second call -/

theorem sources_at_second : W2 m ρ c (Proc.devRef .tc main_v3) = Cert.ReferenceIdeal.ReadP.val_main_v3 (F := Ideal) 𝐞 :=
  (W2_of_ne m ρ c main_v3 (by decide)).trans (sources_at_first m ρ c)

theorem targets_at_second : W2 m ρ c (Proc.devRef .tc main_v6) = Cert.ReferenceIdeal.ReadP.val_main_v6 (F := Ideal) 𝐞 :=
  (W2_of_ne m ρ c main_v6 (by decide)).trans (targets_at_first m ρ c)

/-- An argument array is as launched when the first call returns. -/
theorem bias1_at_second : W2 m ρ c (Proc.devRef .tc main_arg3) = 𝐛₁ := by
  refine (W2_of_ne m ρ c main_arg3 (by decide)).trans ?_
  dsimp only [W1, hostOps0]
  after_results_simp

theorem weights2_at_second : W2 m ρ c (Proc.devRef .tc main_arg4) = 𝐰₂ := by
  refine (W2_of_ne m ρ c main_arg4 (by decide)).trans ?_
  dsimp only [W1, hostOps0]
  after_results_simp

theorem bias2_at_second : W2 m ρ c (Proc.devRef .tc main_arg5) = 𝐛₂ := by
  refine (W2_of_ne m ρ c main_arg5 (by decide)).trans ?_
  dsimp only [W1, hostOps0]
  after_results_simp

theorem weights3_at_second : W2 m ρ c (Proc.devRef .tc main_arg6) = 𝐰₃ := by
  refine (W2_of_ne m ρ c main_arg6 (by decide)).trans ?_
  dsimp only [W1, hostOps0]
  after_results_simp

theorem bias3_at_second : W2 m ρ c (Proc.devRef .tc main_arg7) = 𝐛₃ := by
  refine (W2_of_ne m ρ c main_arg7 (by decide)).trans ?_
  dsimp only [W1, hostOps0]
  after_results_simp

/-- The first layer's output — propagated, biased, clipped at zero — is the reference's stage. -/
theorem second_features : V7 m ρ c main_v50 = Cert.ReferenceIdeal.ReadP.val_main_v49 (F := Ideal) 𝐱 𝐞 𝐰₁ 𝐛₁ := by
  show W7 m ρ c (Proc.devRef .tc main_v50) = _
  dsimp only [W7, W6, W5, W4, W3, hostOps1, hostOps1_1, hostOps1_2, hostOps1_3, hostOps1_4]
  after_results_simp
  rw [first_product, sources_at_second, targets_at_second, bias1_at_second]
  strip_moves
  rfl

theorem second_weights : (V7 m ρ c main_v51 : S128x64.Idx → EReal) = 𝐰₂ := by
  show W7 m ρ c (Proc.devRef .tc main_v51) = _
  dsimp only [W7, W6, W5, W4, W3, hostOps1, hostOps1_1, hostOps1_2, hostOps1_3, hostOps1_4]
  after_results_simp
  rw [weights2_at_second]
  rfl

/-! ## The second call -/

/-- The second call's result is the reference's second `dot_general`. -/
theorem second_product : W8 m ρ c (Proc.devRef .tc main_v52) = Cert.ReferenceIdeal.ReadP.val_main_v50 (F := Ideal) 𝐱 𝐞 𝐰₁ 𝐛₁ 𝐰₂ := by
  refine (W8_arr m ρ c 2).trans ?_
  rw [SecondProduct.final]
  funext i
  unfold SecondProduct.product Cert.ReferenceIdeal.ReadP.val_main_v50
  rw [second_features, second_weights]
  exact (PlainDot.hostDot_apply (φ₁ := .f32) (φ₂ := .f32) Cert.ReferenceIdeal.dot_S50000x128_S128x64_S50000x64_1_0_0_1_n_n rfl none _ _ i).symm

/-! ## Between the second and the third call -/

/-- What the stretch between the first two calls does not write it leaves as the first call left it. -/
theorem kept_sources : W7 m ρ c (Proc.devRef .tc main_v3) = W2 m ρ c (Proc.devRef .tc main_v3) := by
  dsimp only [W7, W6, W5, W4, W3, hostOps1, hostOps1_1, hostOps1_2, hostOps1_3, hostOps1_4]
  after_results_simp
theorem kept_targets : W7 m ρ c (Proc.devRef .tc main_v6) = W2 m ρ c (Proc.devRef .tc main_v6) := by
  dsimp only [W7, W6, W5, W4, W3, hostOps1, hostOps1_1, hostOps1_2, hostOps1_3, hostOps1_4]
  after_results_simp
theorem kept_bias2 : W7 m ρ c (Proc.devRef .tc main_arg5) = W2 m ρ c (Proc.devRef .tc main_arg5) := by
  dsimp only [W7, W6, W5, W4, W3, hostOps1, hostOps1_1, hostOps1_2, hostOps1_3, hostOps1_4]
  after_results_simp
theorem kept_weights3 : W7 m ρ c (Proc.devRef .tc main_arg6) = W2 m ρ c (Proc.devRef .tc main_arg6) := by
  dsimp only [W7, W6, W5, W4, W3, hostOps1, hostOps1_1, hostOps1_2, hostOps1_3, hostOps1_4]
  after_results_simp
theorem kept_bias3 : W7 m ρ c (Proc.devRef .tc main_arg7) = W2 m ρ c (Proc.devRef .tc main_arg7) := by
  dsimp only [W7, W6, W5, W4, W3, hostOps1, hostOps1_1, hostOps1_2, hostOps1_3, hostOps1_4]
  after_results_simp

theorem sources_at_third : W8 m ρ c (Proc.devRef .tc main_v3) = Cert.ReferenceIdeal.ReadP.val_main_v3 (F := Ideal) 𝐞 :=
  ((W8_of_ne m ρ c main_v3 (by decide)).trans (kept_sources m ρ c)).trans (sources_at_second m ρ c)
theorem targets_at_third : W8 m ρ c (Proc.devRef .tc main_v6) = Cert.ReferenceIdeal.ReadP.val_main_v6 (F := Ideal) 𝐞 :=
  ((W8_of_ne m ρ c main_v6 (by decide)).trans (kept_targets m ρ c)).trans (targets_at_second m ρ c)
theorem bias2_at_third : W8 m ρ c (Proc.devRef .tc main_arg5) = 𝐛₂ :=
  ((W8_of_ne m ρ c main_arg5 (by decide)).trans (kept_bias2 m ρ c)).trans (bias2_at_second m ρ c)
theorem weights3_at_third : W8 m ρ c (Proc.devRef .tc main_arg6) = 𝐰₃ :=
  ((W8_of_ne m ρ c main_arg6 (by decide)).trans (kept_weights3 m ρ c)).trans (weights3_at_second m ρ c)
theorem bias3_at_third : W8 m ρ c (Proc.devRef .tc main_arg7) = 𝐛₃ :=
  ((W8_of_ne m ρ c main_arg7 (by decide)).trans (kept_bias3 m ρ c)).trans (bias3_at_second m ρ c)

/-- The second layer's output — propagated and biased — is the reference's stage. -/
theorem third_features : V11 m ρ c main_v93 = Cert.ReferenceIdeal.ReadP.val_main_v91 (F := Ideal) 𝐱 𝐞 𝐰₁ 𝐛₁ 𝐰₂ 𝐛₂ := by
  show W11 m ρ c (Proc.devRef .tc main_v93) = _
  dsimp only [W11, W10, W9, hostOps2, hostOps2_1, hostOps2_2]
  after_results_simp
  rw [second_product, sources_at_third, targets_at_third, bias2_at_third]
  strip_moves
  rfl

theorem third_weights : (V11 m ρ c main_v94 : S64x64.Idx → EReal) = 𝐰₃ := by
  show W11 m ρ c (Proc.devRef .tc main_v94) = _
  dsimp only [W11, W10, W9, hostOps2, hostOps2_1, hostOps2_2]
  after_results_simp
  rw [weights3_at_third]
  rfl

/-- The bias vector laid out as one row. -/
theorem third_bias : (V11 m ρ c main_v95 : S1x64.Idx → EReal) = shapeCast S1x64 (𝐛₃ : S64.Idx → EReal) shapeCasts_S64_S1x64 := by
  show W11 m ρ c (Proc.devRef .tc main_v95) = _
  dsimp only [W11, W10, W9, hostOps2, hostOps2_1, hostOps2_2]
  after_results_simp
  rw [bias3_at_third]
  rfl

/-! ## The third call -/

/-- A vector recast as a one-row matrix reads, in its row, the vector. -/
theorem row_of_vector (b : S64.Idx → EReal) (k : Fin 64) :
    shapeCast S1x64 b shapeCasts_S64_S1x64 (ix2 (0 : Fin 1) k) = b (ix1 k) :=
  shapeCast_apply b _ _ _ (by
    rw [Shape.rowMajor_val_two, Shape.rowMajor_val_one]
    show k.val = 0 * 64 + k.val
    omega)

/-- The host's logits — `dot_general` plus the bias vector laid out as a row and repeated down the rows — read at an
    entry: the kernel's logit of the same arrays. -/
theorem host_logits (h : FVec Ideal Cert.ReferenceIdeal.S50000x64 .f32) (w : FVec Ideal Cert.ReferenceIdeal.S64x64 .f32)
    (b : FVec Ideal Cert.ReferenceIdeal.S64 .f32) (p : Fin 50000) (k : Fin 64) :
    addf (F := Ideal) (Host.dotGeneral Cert.ReferenceIdeal.dot_S50000x64_S64x64_S50000x64_1_0_0_1_n_n none h w)
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 b)) (ix2 p k)
    = Readout.logit h w (shapeCast S1x64 b shapeCasts_S64_S1x64) p k := by
  unfold Readout.logit
  rw [addf_apply, PlainDot.hostDot_apply (φ₁ := .f32) (φ₂ := .f32) Cert.ReferenceIdeal.dot_S50000x64_S64x64_S50000x64_1_0_0_1_n_n rfl none h w (ix2 p k),
    row_of_vector]
  refine congrArg (fun t : EReal => (∑ j : Fin 64, h (ix2 p j) * w (ix2 j k)) + t) ?_
  refine (broadcastInDim_apply _ Cert.ReferenceIdeal.Facts₀.bcast_S1x64_S50000x64_0_1 _ (ix2 p k) (ix2 (0 : Fin 1) k) (fun a => ?_)).trans
    (broadcastInDim_apply _ Cert.ReferenceIdeal.Facts₀.bcast_S64_S1x64_1 b (ix2 (0 : Fin 1) k) (ix1 k) (fun a => ?_))
  · match a with
    | ⟨0, _⟩ => show 0 = if (1 : Nat) = 1 then 0 else p.val; rw [if_pos rfl]
    | ⟨1, _⟩ => show k.val = if (64 : Nat) = 1 then 0 else k.val; rw [if_neg (by decide)]
  · match a with
    | ⟨0, _⟩ => show k.val = if (64 : Nat) = 1 then 0 else k.val; rw [if_neg (by decide)]

/-- The kernel's result buffer after the third call is the reference's result stage: the same logits, row by row,
    under the same shifted log-softmax. -/
theorem result : W12 m ρ c (Proc.devRef .tc main_v96)
    = Cert.ReferenceIdeal.ReadP.val_main_v96 (F := Ideal) 𝐱 𝐞 𝐰₁ 𝐛₁ 𝐰₂ 𝐛₂ 𝐰₃ 𝐛₃ := by
  refine (W12_arr m ρ c 3).trans ?_
  rw [Readout.final]
  funext i
  obtain ⟨p, q, rfl⟩ : ∃ (p : Fin 50000) (q : Fin 64), i = ix2 p q := ⟨i 0, i 1, eq_ix2 i⟩
  unfold Readout.result
  rw [third_features, third_weights, third_bias]
  have hhost := LogSoftmax.host_apply (a := 50000) (b := 64)
    (Cert.ReferenceIdeal.ReadP.val_main_v95 (F := Ideal) 𝐱 𝐞 𝐰₁ 𝐛₁ 𝐰₂ 𝐛₂ 𝐰₃ 𝐛₃)
    Cert.ReferenceIdeal.Facts₀.bcast_S_S50000 Cert.ReferenceIdeal.Facts₀.bcast_S50000_S50000x1_0 Cert.ReferenceIdeal.Facts₀.bcast_S50000x1_S50000x64_0_1
    Cert.ReferenceIdeal.Facts₀.reducesTo_S50000x64_S50000_d1 (by decide) Cert.ReferenceIdeal.Facts₀.h_S_ p q
  refine Eq.trans ?_ hhost.symm
  refine congrArg (fun f => LogSoftmax.row f q) (funext fun k => ?_)
  exact (host_logits (Cert.ReferenceIdeal.ReadP.val_main_v91 (F := Ideal) 𝐱 𝐞 𝐰₁ 𝐛₁ 𝐰₂ 𝐛₂) 𝐰₃ 𝐛₃ p k).symm

end Cert.KernelIdeal.Layers

end
-- ==== Proof.lean ====
/-
  A two-layer graph convolution with a linear readout and a row-wise log-softmax: the kernel against its reference, on
  the extended reals.

  Both programs compute, for node features x [50000, 512], an edge list [2, 1600000] and three weight/bias pairs,
      h₁ = relu (P (x·W₁) + b₁),   h₂ = P (h₁·W₂) + b₂,   out = log_softmax (h₂·W₃ + b₃)  row by row,
  where P gathers the rows of its argument at the edges' sources (self loops appended), scales each by
  dinv[source]·dinv[target] with dinv = 1/sqrt(in-degree), and scatter-adds them at the edges' targets. The kernel
  computes the three dense products (and the readout's bias and log-softmax) in pallas_calls over 25 blocks of 2000 rows;
  the propagation P, the biases and the clipping are the same host operations in both programs, in the same order.

  On the extended reals the narrowing to bf16 before each product is the identity, a product into a zero accumulator is
  the plain sum over the contracted index, a lane maximum and the host's maximum-reduce are the same fold, and a lane
  sum and the host's sum-reduce the same sum; no law that needs finiteness is used, so the precondition is never opened.
  The kernel's result (Layers.result: the fold of the launch memory through the three calls, FoldedRun) and the
  reference's run (its composed term, read stage by stage) are therefore one function of the arguments.
-/
import proofs.«163264_j20469814133394_1_alg».proof.Defs
import proofs.«163264_j20469814133394_1_alg».proof.Proof.Gen.Kernel
import proofs.«163264_j20469814133394_1_alg».proof.Proof.Gen.Kernel.Skeleton
import proofs.«163264_j20469814133394_1_alg».proof.Proof.Gen.Kernel.Launch
import proofs.«163264_j20469814133394_1_alg».proof.Proof.Gen.Kernel.Points
import proofs.«163264_j20469814133394_1_alg».proof.Proof.Gen.Kernel.Frame
import proofs.«163264_j20469814133394_1_alg».proof.Proof.Gen.KernelIdeal
import proofs.«163264_j20469814133394_1_alg».proof.Proof.Gen.KernelIdeal.Skeleton
import proofs.«163264_j20469814133394_1_alg».proof.Proof.Gen.KernelIdeal.Launch
import proofs.«163264_j20469814133394_1_alg».proof.Proof.Gen.KernelIdeal.Points
import proofs.«163264_j20469814133394_1_alg».proof.Proof.Gen.KernelIdeal.Frame
import proofs.«163264_j20469814133394_1_alg».proof.Proof.Gen.ReferenceIdeal
import proofs.«163264_j20469814133394_1_alg».proof.Proof.Gen.Pre_finite_inputs
import proofs.«163264_j20469814133394_1_alg».proof.Proof.RefRunP
import proofs.«163264_j20469814133394_1_alg».proof.Proof.RefReadP
import proofs.«163264_j20469814133394_1_alg».proof.Proof.FoldedRun
import proofs.«163264_j20469814133394_1_alg».proof.Proof.Layers
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the arguments the two idealized programs end with the same result array: the kernel's
    is the reference's last stage of the kernel's arguments, the reference's its last stage of its own. -/
theorem algebraic : Cert.algebraic_KernelIdeal_ReferenceIdeal := by
  intro m ρ m' ρ' _ hagree
  refine ⟨fun c => Cert.KernelIdeal.Gen.W12 m ρ c (Proc.devRef .tc Cert.KernelIdeal.main_v96), Cert.KernelIdeal.Folded.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v96_eq, e0, e1, e2, e3, e4, e5, e6, e7]
  exact (Cert.KernelIdeal.Layers.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
